-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x513 : Shape := ⟨2, ![4096, 513]⟩
abbrev S8x1000 : Shape := ⟨2, ![8, 1000]⟩
abbrev S8 : Shape := ⟨1, ![8]⟩
abbrev S_ : Shape := ⟨0, ![]⟩

class Facts : Prop where
  bcast_S_S4096x513 : S_.BroadcastsInDim S4096x513 (![] : Fin 0 → Fin S4096x513.rank)
  reducesTo_S4096x513_S_d0_1 : S4096x513.ReducesTo [0, 1] S_
  h_S_ : 0 < S_.numel
  bcast_S_S8x1000 : S_.BroadcastsInDim S8x1000 (![] : Fin 0 → Fin S8x1000.rank)
  reducesTo_S8x1000_S_d0_1 : S8x1000.ReducesTo [0, 1] S_
  bcast_S_S8 : S_.BroadcastsInDim S8 (![] : Fin 0 → Fin S8.rank)
  reducesTo_S8_S_d0 : S8.ReducesTo [0] S_
  slices_S4096x513_S4096x512_0_0 : S4096x513.Slices ![0, 0] S4096x512
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v13 : IVec S_ 1) (main_v16 : FVec F S4096x512 .f32) : IVec S_ 1 :=
  let main_cst_5 : FVec F S_ .f32 := constant S_ .f32 0x447A0000#32
  let main_v17 : FVec F S4096x512 .f32 := broadcastInDim S4096x512 ![] bcast_S_S4096x512 main_cst_5
  let main_v18 : FVec F S4096x512 .f32 := Host.divf main_v16 main_v17
  let main_v19 : FVec F S4096x512 .f32 := Host.floor main_v18
  let main_cst_6 : FVec F S_ .f32 := constant S_ .f32 0x00000000#32
  let main_v20 : FVec F S4096x512 .f32 := broadcastInDim S4096x512 ![] bcast_S_S4096x512 main_cst_6
  let main_v21 : FVec F S4096x512 .f32 := maximumf main_v19 main_v20
  let main_v22 : IVec S4096x512 32 := fptosi 32 main_v21
  let main_c_7 : IVec S_ 32 := constantI S_ 32 999#32
  let main_v23 : IVec S4096x512 32 := broadcastInDim S4096x512 ![] bcast_S_S4096x512 main_c_7
  let main_v24 : IVec S4096x512 1 := cmpi .sle main_v22 main_v23
  let main_c_8 : IVec S_ 1 := constantI S_ 1 1#1
  let main_v25 : IVec S_ 1 := (fun x v => Host.reduce IntOp.andi x v reducesTo_S4096x512_S_d0_1 h_S_) main_v24 main_c_8
  let main_v26 : IVec S_ 1 := andi main_v13 main_v25
  main_v26

def fn {F : FTy → Type} [FloatOps F] (main_arg0 : IVec S4096x512 32) (main_arg1 : FVec F S4096x513 .f32) (main_arg2 : FVec F S8x1000 .f32) (main_arg3 : FVec F S8 .f32) : IVec S_ 1 :=
  let main_v0 : FVec F S4096x513 .f32 := Host.absf main_arg1
  let main_cst : FVec F S_ .f32 := constant S_ .f32 0x7F800000#32
  let main_v1 : FVec F S4096x513 .f32 := broadcastInDim S4096x513 ![] bcast_S_S4096x513 main_cst
  let main_v2 : IVec S4096x513 1 := cmpf .olt main_v0 main_v1
  let main_c : IVec S_ 1 := constantI S_ 1 1#1
  let main_v3 : IVec S_ 1 := (fun x v => Host.reduce IntOp.andi x v reducesTo_S4096x513_S_d0_1 h_S_) main_v2 main_c
  let main_v4 : FVec F S8x1000 .f32 := Host.absf main_arg2
  let main_cst_0 : FVec F S_ .f32 := constant S_ .f32 0x7F800000#32
  let main_v5 : FVec F S8x1000 .f32 := broadcastInDim S8x1000 ![] bcast_S_S8x1000 main_cst_0
  let main_v6 : IVec S8x1000 1 := cmpf .olt main_v4 main_v5
  let main_c_1 : IVec S_ 1 := constantI S_ 1 1#1
  let main_v7 : IVec S_ 1 := (fun x v => Host.reduce IntOp.andi x v reducesTo_S8x1000_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S4096x512 .f32 := (extractStridedSlice S4096x512 ![0, 0] · slices_S4096x513_S4096x512_0_0) main_arg1
  let main_cst_4 : FVec F S_ .f32 := constant S_ .f32 0x00000000#32
  let main_v15 : FVec F S4096x512 .f32 := broadcastInDim S4096x512 ![] bcast_S_S4096x512 main_cst_4
  let main_v16 : FVec F S4096x512 .f32 := subf main_v14 main_v15
  fn_part1 (F := F) main_v13 main_v16
-- ==== Kernel.lean ====
abbrev S4096x512 : Shape := ⟨2, ![4096, 512]⟩
abbrev S4096x513 : Shape := ⟨2, ![4096, 513]⟩
abbrev S8x1000 : Shape := ⟨2, ![8, 1000]⟩
abbrev S8 : Shape := ⟨1, ![8]⟩
abbrev S1000x8 : Shape := ⟨2, ![1000, 8]⟩
abbrev S_ : Shape := ⟨0, ![]⟩
abbrev S1024x8 : Shape := ⟨2, ![1024, 8]⟩
abbrev S1x8 : Shape := ⟨2, ![1, 8]⟩
abbrev S4096x512x8 : Shape := ⟨3, ![4096, 512, 8]⟩
abbrev S8x512 : Shape := ⟨2, ![8, 512]⟩
abbrev S8x512x8 : Shape := ⟨3, ![8, 512, 8]⟩
abbrev S8x512x1024 : Shape := ⟨3, ![8, 512, 1024]⟩
abbrev S8x512x1 : Shape := ⟨3, ![8, 512, 1]⟩
abbrev S4096x1024 : Shape := ⟨2, ![4096, 1024]⟩
abbrev S4096x8 : Shape := ⟨2, ![4096, 8]⟩
abbrev S1x1x8 : Shape := ⟨3, ![1, 1, 8]⟩

abbrev nBuf : Space → Nat
  | .hbm => 12
  | .vmem => 6
  | .smem => 0
  | _ => 0

abbrev bufTy : (tb : Table) → Fin (tcTables nBuf tb) → BufTy
  | .hbm, ⟨0, _⟩ => ⟨S4096x512, .i32⟩
  | .hbm, ⟨1, _⟩ => ⟨S4096x513, .f32⟩
  | .hbm, ⟨2, _⟩ => ⟨S8x1000, .f32⟩
  | .hbm, ⟨3, _⟩ => ⟨S8, .f32⟩
  | .hbm, ⟨4, _⟩ => ⟨S4096x512, .f32⟩
  | .hbm, ⟨5, _⟩ => ⟨S1000x8, .f32⟩
  | .hbm, ⟨6, _⟩ => ⟨S1000x8, .bf16⟩
  | .hbm, ⟨7, _⟩ => ⟨S_, .i32⟩
  | .hbm, ⟨8, _⟩ => ⟨S_, .bf16⟩
  | .hbm, ⟨9, _⟩ => ⟨S1024x8, .bf16⟩
  | .hbm, ⟨10, _⟩ => ⟨S1x8, .f32⟩
  | .hbm, ⟨11, _⟩ => ⟨S4096x512x8, .f32⟩
  | .local _ .vmem, ⟨0, _⟩ => ⟨S8x512, .f32⟩
  | .local _ .vmem, ⟨1, _⟩ => ⟨S8x512, .f32⟩
  | .local _ .vmem, ⟨2, _⟩ => ⟨S1024x8, .bf16⟩
  | .local _ .vmem, ⟨3, _⟩ => ⟨S1x8, .f32⟩
  | .local _ .vmem, ⟨4, _⟩ => ⟨S8x512x8, .f32⟩
  | .local _ .vmem, ⟨5, _⟩ => ⟨S8x512x8, .f32⟩
  | _, _ => ⟨S4096x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S4096x513_S4096x512_0_0 : S4096x513.Slices ![0, 0] S4096x512
  transposes_S8x1000_S1000x8_1_0 : S8x1000.Transposes [1, 0] S1000x8
  bitsLt_bf16_f32 : FTy.bits .bf16 < FTy.bits .f32
  pads_S1000x8_S1024x8_0240_000 : S1000x8.Pads (![0, 0] : Fin 2 → Nat) ![24, 0] ![0, 0] S1024x8
  h_S_ : 0 < S_.numel
  shapeCasts_S8_S1x8 : S8.ShapeCasts S1x8
  inb_S8x512_S8x512_0_0 : ∀ a, (![0, 0] : Fin 2 → Nat) a + S8x512.size a ≤ S8x512.size a
  h_S8x512 : 0 < S8x512.numel
  shapeCasts_S8x512_S8x512 : S8x512.ShapeCasts S8x512
  iota_S8x512x1024_d2_w32 : S8x512x1024.Iotas .tc 32 [2]
  shapeCasts_S8x512_S8x512x1 : S8x512.ShapeCasts S8x512x1
  broadcasts_S8x512x1_S8x512x1024 : S8x512x1.Broadcasts S8x512x1024
  natLt_1_32 : 1 < 32
  shapeCasts_S8x512x1024_S4096x1024 : S8x512x1024.ShapeCasts S4096x1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  shapeCasts_S4096x8_S8x512x8 : S4096x8.ShapeCasts S8x512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  shapeCasts_S1x8_S1x1x8 : S1x8.ShapeCasts S1x1x8
  broadcasts_S1x1x8_S8x512x8 : S1x1x8.Broadcasts S8x512x8
  inb_S8x512x8_S8x512x8_0_0_0 : ∀ a, (![0, 0, 0] : Fin 3 → Nat) a + S8x512x8.size a ≤ S8x512x8.size a
  h_S8x512x8 : 0 < S8x512x8.numel
  dot_S4096x1024_S1024x8_S4096x8_1_0_0_1_n_n_wf : DotDims.WF S4096x1024 S1024x8 S4096x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S4096x512.size a
  hwx0_0 : ∀ i : grid0.Coords, EltTy.bits .f32 = 32 ∨ (Rect.block (s := S4096x512) S8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x8.size a ≤ S1024x8.size a
  hwx0_1 : ∀ i : grid0.Coords, EltTy.bits .bf16 = 32 ∨ (Rect.block (s := S1024x8) S1024x8.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512x8.size a ≤ S4096x512x8.size a
  hwx0_3 : ∀ i : grid0.Coords, EltTy.bits .f32 = 32 ∨ (Rect.block (s := S4096x512x8) S8x512x8.size (cc0_transform_3 i) (hinb0_3 i)).WholeWords (EltTy.packing .f32)

variable [Facts₀]

def dot_S4096x1024_S1024x8_S4096x8_1_0_0_1_n_n : DotDims S4096x1024 S1024x8 S4096x8 where
  lhsContracting := [1]
  rhsContracting := [0]
  lhsNonContracting := [0]
  rhsNonContracting := [1]
  lhsBatch := []
  rhsBatch := []
  wf := dot_S4096x1024_S1024x8_S4096x8_1_0_0_1_n_n_wf

abbrev win0_0 : Pipeline.Window sig grid0 :=
  Pipeline.Window.ofSpec (Memref.whole main_v0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x512x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x513 : Shape := ⟨2, ![4096, 513]⟩
abbrev S8x1000 : Shape := ⟨2, ![8, 1000]⟩
abbrev S8 : Shape := ⟨1, ![8]⟩
abbrev S_ : Shape := ⟨0, ![]⟩
abbrev S1000x8 : Shape := ⟨2, ![1000, 8]⟩
abbrev S4096x512x1 : Shape := ⟨3, ![4096, 512, 1]⟩
abbrev S1 : Shape := ⟨1, ![1]⟩
abbrev S1x1x1 : Shape := ⟨3, ![1, 1, 1]⟩
abbrev S4096x512x8 : Shape := ⟨3, ![4096, 512, 8]⟩
abbrev S1x1x8 : Shape := ⟨3, ![1, 1, 8]⟩

abbrev nBuf : Space → Nat
  | .hbm => 43
  | .vmem => 0
  | .smem => 0
  | _ => 0

abbrev bufTy : (tb : Table) → Fin (tcTables nBuf tb) → BufTy
  | .hbm, ⟨0, _⟩ => ⟨S4096x512, .i32⟩
  | .hbm, ⟨1, _⟩ => ⟨S4096x513, .f32⟩
  | .hbm, ⟨2, _⟩ => ⟨S8x1000, .f32⟩
  | .hbm, ⟨3, _⟩ => ⟨S8, .f32⟩
  | .hbm, ⟨4, _⟩ => ⟨S4096x512, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S4096x512, .i32⟩
  | .hbm, ⟨16, _⟩ => ⟨S1000x8, .f32⟩
  | .hbm, ⟨17, _⟩ => ⟨S_, .i32⟩
  | .hbm, ⟨18, _⟩ => ⟨S4096x512, .i32⟩
  | .hbm, ⟨19, _⟩ => ⟨S4096x512, .i1⟩
  | .hbm, ⟨20, _⟩ => ⟨S_, .i32⟩
  | .hbm, ⟨21, _⟩ => ⟨S4096x512, .i32⟩
  | .hbm, ⟨22, _⟩ => ⟨S4096x512, .i32⟩
  | .hbm, ⟨23, _⟩ => ⟨S4096x512, .i32⟩
  | .hbm, ⟨24, _⟩ => ⟨S4096x512x1, .i32⟩
  | .hbm, ⟨25, _⟩ => ⟨S1, .i32⟩
  | .hbm, ⟨26, _⟩ => ⟨S_, .i32⟩
  | .hbm, ⟨27, _⟩ => ⟨S4096x512x1, .i32⟩
  | .hbm, ⟨28, _⟩ => ⟨S4096x512x1, .i1⟩
  | .hbm, ⟨29, _⟩ => ⟨S1x1x1, .i32⟩
  | .hbm, ⟨30, _⟩ => ⟨S4096x512x1, .i32⟩
  | .hbm, ⟨31, _⟩ => ⟨S4096x512x1, .i1⟩
  | .hbm, ⟨32, _⟩ => ⟨S4096x512x1, .i1⟩
  | .hbm, ⟨33, _⟩ => ⟨S_, .i1⟩
  | .hbm, ⟨34, _⟩ => ⟨S4096x512, .i1⟩
  | .hbm, ⟨35, _⟩ => ⟨S4096x512x8, .f32⟩
  | .hbm, ⟨36, _⟩ => ⟨S4096x512x8, .i1⟩
  | .hbm, ⟨37, _⟩ => ⟨S_, .f32⟩
  | .hbm, ⟨38, _⟩ => ⟨S4096x512x8, .f32⟩
  | .hbm, ⟨39, _⟩ => ⟨S4096x512x8, .f32⟩
  | .hbm, ⟨40, _⟩ => ⟨S1x1x8, .f32⟩
  | .hbm, ⟨41, _⟩ => ⟨S4096x512x8, .f32⟩
  | .hbm, ⟨42, _⟩ => ⟨S4096x512x8, .f32⟩
  | _, _ => ⟨S4096x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩

abbrev nD : Nat := 1
abbrev τ : Topo := Topo.v7x

variable {F : FTy → Type} [FloatOps F]

class Facts₀ : Prop where
  slices_S4096x513_S4096x512_0_0 : S4096x513.Slices ![0, 0] S4096x512
  bcast_S_S4096x512 : S_.BroadcastsInDim S4096x512 (![] : Fin 0 → Fin S4096x512.rank)
  transposes_S8x1000_S1000x8_1_0 : S8x1000.Transposes [1, 0] S1000x8
  bcast_S4096x512_S4096x512x1_0_1 : S4096x512.BroadcastsInDim S4096x512x1 (![0, 1] : Fin 2 → Fin S4096x512x1.rank)
  bcast_S_S4096x512x1 : S_.BroadcastsInDim S4096x512x1 (![] : Fin 0 → Fin S4096x512x1.rank)
  bcast_S1_S1x1x1_2 : S1.BroadcastsInDim S1x1x1 (![2] : Fin 1 → Fin S1x1x1.rank)
  bcast_S1x1x1_S4096x512x1_0_1_2 : S1x1x1.BroadcastsInDim S4096x512x1 (![0, 1, 2] : Fin 3 → Fin S4096x512x1.rank)
  reducesTo_S4096x512x1_S4096x512_d2 : S4096x512x1.ReducesTo [2] S4096x512
  h_S_ : 0 < S_.numel
  bcast_S4096x512_S4096x512x8_0_1 : S4096x512.BroadcastsInDim S4096x512x8 (![0, 1] : Fin 2 → Fin S4096x512x8.rank)
  bcast_S_S4096x512x8 : S_.BroadcastsInDim S4096x512x8 (![] : Fin 0 → Fin S4096x512x8.rank)
  bcast_S8_S1x1x8_2 : S8.BroadcastsInDim S1x1x8 (![2] : Fin 1 → Fin S1x1x8.rank)
  bcast_S1x1x8_S4096x512x8_0_1_2 : S1x1x8.BroadcastsInDim S4096x512x8 (![0, 1, 2] : Fin 3 → Fin S4096x512x8.rank)
  gather_S1000x8_S4096x512x1_S4096x512x8_2_0_n_n_0_2_18_wf : GatherDims.WF S1000x8 S4096x512x1 S4096x512x8 [2] [0] [] [0] [] 2 ![1, 8]

variable [Facts₀]

def gather_S1000x8_S4096x512x1_S4096x512x8_2_0_n_n_0_2_18 : GatherDims S1000x8 S4096x512x1 S4096x512x8 where
  offsetDims := [2]
  collapsedSliceDims := [0]
  operandBatchingDims := []
  startIndicesBatchingDims := []
  startIndexMap := [0]
  indexVectorDim := 2
  sliceSizes := ![1, 8]
  wf := gather_S1000x8_S4096x512x1_S4096x512x8_2_0_n_n_0_2_18_wf

class Facts : Prop extends Facts₀ where

variable [Facts]
-- ==== Proof.Spec.lean ====
/-
  The value both programs compute, as one function of the argument arrays.

  A time `x` falls in the bin `⌊(x − 0) / 1000⌋`, raised to at least `0` and converted to a 32-bit integer
  (`bin`). A bin word names a row of the 1000-row table: the word read signed and clamped into `[0, 999]`
  (`row`). The embedding of entry `(p, q)` of the time array (its last column dropped) is row `bin` of the
  transposed weight table plus the bias: `emb ts W b (p, q, o) = W (o, row (bin (ts (p, q)))) + b o`.
  The bins are in range when every one of them, read signed, is at most `999` (`InRange`); they are never
  negative, because the floor is raised to at least `0` before it is converted (`bin_nonneg`).
-/
import Idealize.ShloMosaic.PureOps.Ideal
import Idealize.ShloMosaic.PureOps.Ideal.Laws
import Idealize.ShloMosaic.Lib.ValueIdx

noncomputable section

namespace TimeBin

open Idealize.ShloMosaic Idealize.ShloMosaic.ValueIdx

/-- The bin of a time `x`: `⌊(x − 0) / 1000⌋`, raised to at least `0`, rounded toward zero into a 32-bit word. -/
def bin (x : EReal) : BitVec 32 :=
  Ideal.fptosi 32 (max (Ideal.liftRound Int.floor (Ideal.div (x - Ideal.ofBits .f32 0x00000000#32) (Ideal.ofBits .f32 0x447A0000#32)))
    (Ideal.ofBits .f32 0x00000000#32))

/-- The table row a bin word names: the word read signed, clamped into `[0, 999]`. -/
def row (w : BitVec 32) : Fin 1000 := ⟨min w.toInt.toNat 999, by omega⟩

/-- The embedding: entry `(p, q, o)` is the weight table at `(o, row (bin (ts (p, q))))` plus the bias at `o`. -/
def emb (ts : (⟨2, ![4096, 513]⟩ : Shape).Idx → EReal) (W : (⟨2, ![8, 1000]⟩ : Shape).Idx → EReal)
    (b : (⟨1, ![8]⟩ : Shape).Idx → EReal) : (⟨3, ![4096, 512, 8]⟩ : Shape).Idx → EReal :=
  fun i => W (ix2 (i 2 : Fin 8) (row (bin (ts (ix2 (i 0 : Fin 4096) (Fin.castSucc (i 1 : Fin 512))))))) + b (ix1 (i 2 : Fin 8))

theorem emb_apply (ts : (⟨2, ![4096, 513]⟩ : Shape).Idx → EReal) (W : (⟨2, ![8, 1000]⟩ : Shape).Idx → EReal)
    (b : (⟨1, ![8]⟩ : Shape).Idx → EReal) (p : Fin 4096) (q : Fin 512) (o : Fin 8) :
    emb ts W b (ix3 p q o) = W (ix2 o (row (bin (ts (ix2 p (Fin.castSucc q)))))) + b (ix1 o) := rfl

/-- Every bin of the time array (its last column dropped), read signed, is at most `999`. -/
def InRange (ts : (⟨2, ![4096, 513]⟩ : Shape).Idx → EReal) : Prop :=
  ∀ (p : Fin 4096) (q : Fin 512), (bin (ts (ix2 p (Fin.castSucc q)))).toInt ≤ 999

/-- An integer in `[0, 2³¹ − 1]` made a 32-bit word and read back signed is itself. -/
theorem toInt_ofInt_of_range (v : Int) (h0 : 0 ≤ v) (h1 : v ≤ 2147483647) : (BitVec.ofInt 32 v).toInt = v := by
  rw [BitVec.toInt_ofInt]
  simp only [Int.bmod]
  omega

/-- An extended real that is at least `0`, rounded toward zero and clamped into the 32-bit signed range, lies in
    `[0, 2³¹ − 1]`: `+∞` goes to the upper end, a real `r ≥ 0` to `⌊r⌋ ≥ 0` capped above. -/
theorem toIntClamped_range (y : EReal) (h0 : (0 : EReal) ≤ y) :
    0 ≤ Ideal.toIntClamped (-((2 ^ (32 - 1) : Nat) : Int)) (((2 ^ (32 - 1) : Nat) : Int) - 1) y ∧
    Ideal.toIntClamped (-((2 ^ (32 - 1) : Nat) : Int)) (((2 ^ (32 - 1) : Nat) : Int) - 1) y ≤ 2147483647 := by
  induction y using EReal.rec with
  | bot => exact absurd h0 (by simp)
  | top =>
    show (0 : Int) ≤ ((2 ^ (32 - 1) : Nat) : Int) - 1 ∧ ((2 ^ (32 - 1) : Nat) : Int) - 1 ≤ 2147483647
    norm_num
  | coe r =>
    have hr : 0 ≤ r := by exact_mod_cast h0
    have hf : 0 ≤ ⌊r⌋ := Int.floor_nonneg.mpr hr
    show 0 ≤ max (-((2 ^ (32 - 1) : Nat) : Int)) (min (((2 ^ (32 - 1) : Nat) : Int) - 1) (if 0 ≤ r then ⌊r⌋ else ⌈r⌉))
      ∧ max (-((2 ^ (32 - 1) : Nat) : Int)) (min (((2 ^ (32 - 1) : Nat) : Int) - 1) (if 0 ≤ r then ⌊r⌋ else ⌈r⌉)) ≤ 2147483647
    rw [if_pos hr]
    norm_num
    omega

/-- A bin is never negative: the floor is raised to at least `0` before it is converted, and an extended real
    that is at least `0` converts to a word that, read signed, is at least `0`. -/
theorem bin_nonneg (x : EReal) : 0 ≤ (bin x).toInt := by
  unfold bin Ideal.fptosi
  have h0 : (0 : EReal) ≤ max (Ideal.liftRound Int.floor (Ideal.div (x - Ideal.ofBits .f32 0x00000000#32)
      (Ideal.ofBits .f32 0x447A0000#32))) (Ideal.ofBits .f32 0x00000000#32) := by
    rw [Ideal.ofBits_zero_f32]; exact le_max_right _ _
  obtain ⟨ha, hb⟩ := toIntClamped_range _ h0
  rw [toInt_ofInt_of_range _ ha hb]; exact ha

/-- A word that reads signed as a number in `[0, 999]` reads unsigned as the same number. -/
theorem toNat_of_range (w : BitVec 32) (h0 : 0 ≤ w.toInt) (h1 : w.toInt ≤ 999) :
    w.toNat ≤ 999 ∧ (w.toNat : Int) = w.toInt := by
  have := BitVec.toInt_eq_toNat_cond w
  split at this <;> omega

/-- For such a word the row it names is the word's own value: the clamp does nothing. -/
theorem row_val (w : BitVec 32) (h0 : 0 ≤ w.toInt) (h1 : w.toInt ≤ 999) : (row w).val = w.toNat := by
  obtain ⟨ha, hb⟩ := toNat_of_range w h0 h1
  show min w.toInt.toNat 999 = w.toNat
  omega

/-- A word equals the word of a number below `2³²` exactly when the number is the word's value. -/
theorem eq_ofNat_iff (w : BitVec 32) (k : Nat) (hk : k < 4294967296) : w = BitVec.ofNat 32 k ↔ k = w.toNat := by
  constructor
  · rintro rfl; simp [BitVec.toNat_ofNat]; omega
  · rintro rfl; simp

/-- The equality test of two words, widened to 32 bits and read signed, is `1` when they are equal and `0` when not. -/
theorem toInt_cmpi_eq (a b : BitVec 32) : ((IntOp.cmpi .eq a b).setWidth 32).toInt = if a = b then 1 else 0 := by
  unfold IntOp.cmpi
  by_cases h : a = b
  · subst h; simp
  · have hb : (a == b) = false := by simpa using h
    simp [h, hb]

end TimeBin

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«150341_j70755291234328_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.KPay.lean ====
/-
  The kernel body's stored value, read at an entry of the output block.

  The body turns its block of times into bins, compares every bin with the numbers 0 … 1023 to get a one-hot row
  per time, multiplies the 4096 × 1024 one-hot matrix by the padded 1024 × 8 table and adds the bias row. At entry
  `(a, r, o)` of the block the product is the sum over `k` of `[bin (a, r) = k] · table (k, o)`; every term but the
  one at `k = bin (a, r)` is `0 · table (k, o) = 0` (on the extended reals too), so when the bin is a number below
  1024 the sum is the table's entry `(bin (a, r), o)`.
-/
import proofs.«150341_j70755291234328_1_alg».proof.Proof.Gen.KernelIdeal.Skeleton
import proofs.«150341_j70755291234328_1_alg».proof.Proof.Spec
import proofs.«150341_j70755291234328_1_alg».proof.Proof.LibDotRecord
import Idealize.ShloMosaic.Lib.Pipeline.Value
import Idealize.ShloMosaic.Lib.ValueLayout

noncomputable section

namespace Cert.KernelIdeal.Embed

open Cert.KernelIdeal Cert.KernelIdeal.Gen Idealize.ShloMosaic Idealize.ShloMosaic.ValueIdx

/-- A sum of one-hot weights picks one term: if the word `w` is a number below `n`, the sum over `k < n` of
    `[w = k] · f k` is `f w`; every other term is `0 · f k = 0`, whatever extended real `f k` is. -/
theorem sum_onehot {n : ℕ} (w : BitVec 32) (hn : w.toNat < n) (hn2 : n ≤ 4294967296) (f : Fin n → EReal) :
    ∑ k : Fin n, (if w = BitVec.ofNat 32 k.val then (1 : EReal) else 0) * f k = f ⟨w.toNat, hn⟩ := by
  rw [Finset.sum_eq_single (⟨w.toNat, hn⟩ : Fin n)]
  · rw [if_pos ((TimeBin.eq_ofNat_iff w w.toNat (by omega)).mpr rfl), one_mul]
  · intro k _ hk
    have hne : ¬ w = BitVec.ofNat 32 k.val := fun h =>
      hk (Fin.ext ((TimeBin.eq_ofNat_iff w k.val (by have := k.isLt; omega)).mp h))
    rw [if_neg hne, zero_mul]
  · intro h; exact absurd (Finset.mem_univ _) h

variable (x0 : Vec Ideal S8x512 .f32) (x1 : Vec Ideal S1024x8 .bf16) (x2 : Vec Ideal S1x8 .f32)

/-- The bins of the block of times, as the body computes them. -/
def bins : IVec S8x512 32 :=
  fptosi 32 (maximumf (floor (divf (subf (shapeCast S8x512 x0 shapeCasts_S8x512_S8x512)
    (broadcast S8x512 (Scalar.ofBits (F := Ideal) .f32 0x00000000#32))) (broadcast S8x512 (Scalar.ofBits (F := Ideal) .f32 0x447A0000#32))))
    (broadcast S8x512 (Scalar.ofBits (F := Ideal) .f32 0x00000000#32)))

/-- The one-hot matrix: row `512 a + r` has a `1` in column `k` exactly when the bin of time `(a, r)` is `k`. -/
def onehot : FVec Ideal S4096x1024 .bf16 :=
  shapeCast S4096x1024 (truncf .bf16 (sitofp (F := Ideal) .f32 (extui 32 (cmpi .eq
    (broadcastTo S8x512x1024 (shapeCast S8x512x1 (bins x0) shapeCasts_S8x512_S8x512x1) broadcasts_S8x512x1_S8x512x1024)
    (iota .tc S8x512x1024 32 [2] iota_S8x512x1024_d2_w32)) natLt_1_32)) bitsLt_bf16_f32) shapeCasts_S8x512x1024_S4096x1024

/-- The stored value is the one-hot matrix times the table, re-laid as `[8, 512, 8]`, plus the bias row broadcast. -/
theorem pay_eq : k0_pay1 x0 x1 x2 =
    addf (shapeCast S8x512x8 (matmul dot_S4096x1024_S1024x8_S4096x8_1_0_0_1_n_n none (onehot x0)
        (shapeCast S1024x8 x1 shapeCasts_S1024x8_S1024x8 : FVec Ideal S1024x8 .bf16) (constant S4096x8 .f32 0x00000000#32)) shapeCasts_S4096x8_S8x512x8)
      (broadcastTo S8x512x8 (shapeCast S1x1x8 (shapeCast S1x8 x2 shapeCasts_S1x8_S1x8) shapeCasts_S1x8_S1x1x8) broadcasts_S1x1x8_S8x512x8) := rfl

/-- The body's bin of time `(a, r)` is the bin of that time. -/
theorem bins_apply (a : Fin 8) (r : Fin 512) : bins x0 (ix2 a r) = TimeBin.bin (x0 (ix2 a r)) := by
  unfold bins
  rw [shapeCast_self]
  rfl

/-- The bin of time `(a, r)` repeated along the 1024 columns. -/
theorem bcast_bins_apply (a : Fin 8) (r : Fin 512) (k : Fin 1024) :
    broadcastTo S8x512x1024 (shapeCast S8x512x1 (bins x0) shapeCasts_S8x512_S8x512x1) broadcasts_S8x512x1_S8x512x1024 (ix3 a r k)
      = TimeBin.bin (x0 (ix2 a r)) := by
  rw [broadcastTo_apply _ broadcasts_S8x512x1_S8x512x1024 (ix3 a r k) (ix3 a r (0 : Fin 1)) (fun ax => by
    match ax with
    | ⟨0, _⟩ => show a.val = if (8 : ℕ) = 1 then 0 else a.val; rw [if_neg (by omega)]
    | ⟨1, _⟩ => show r.val = if (512 : ℕ) = 1 then 0 else r.val; rw [if_neg (by omega)]
    | ⟨2, _⟩ => show (0 : ℕ) = if (1 : ℕ) = 1 then 0 else k.val; rw [if_pos rfl])]
  rw [shapeCast_apply _ shapeCasts_S8x512_S8x512x1 (ix3 a r (0 : Fin 1)) (ix2 a r) (by
    rw [Shape.rowMajor_val_two, Shape.rowMajor_val_three]
    show a.val * 512 + r.val = (a.val * 512 + r.val) * 1 + 0
    omega)]
  exact bins_apply x0 a r

/-- The column numbers: entry `(a, r, k)` of the iota along the last axis is the word `k`. -/
theorem iota_apply (a : Fin 8) (r : Fin 512) (k : Fin 1024) :
    iota .tc S8x512x1024 32 [2] iota_S8x512x1024_d2_w32 (ix3 a r k) = BitVec.ofNat 32 k.val :=
  iota_single_apply .tc S8x512x1024 32 2 iota_S8x512x1024_d2_w32 (ix3 a r k)

/-- An equality test converted to a float: the test's bit, widened and read as a signed integer. -/
theorem indicator_entry (B I : IVec S8x512x1024 32) (i : S8x512x1024.Idx) :
    (truncf .bf16 (sitofp (F := Ideal) .f32 (extui 32 (cmpi .eq B I) natLt_1_32)) bitsLt_bf16_f32 : FVec Ideal S8x512x1024 .bf16) i
      = ((((IntOp.cmpi .eq (B i) (I i)).setWidth 32).toInt : ℝ) : EReal) := rfl

/-- Entry `(512 a + r, k)` of the one-hot matrix: `1` when the bin of time `(a, r)` is the word `k`, else `0`. -/
theorem onehot_apply (a : Fin 8) (r : Fin 512) (k : Fin 1024) (R : Fin 4096) (hR : R.val = a.val * 512 + r.val) :
    onehot x0 (ix2 R k) = if TimeBin.bin (x0 (ix2 a r)) = BitVec.ofNat 32 k.val then (1 : EReal) else 0 := by
  unfold onehot
  rw [shapeCast_apply _ shapeCasts_S8x512x1024_S4096x1024 (ix2 R k) (ix3 a r k) (by
    rw [Shape.rowMajor_val_three, Shape.rowMajor_val_two]
    show (a.val * 512 + r.val) * 1024 + k.val = R.val * 1024 + k.val
    rw [hR])]
  rw [indicator_entry, TimeBin.toInt_cmpi_eq, bcast_bins_apply, iota_apply]
  by_cases hc : TimeBin.bin (x0 (ix2 a r)) = BitVec.ofNat 32 k.val
  · rw [if_pos hc, if_pos hc]; norm_num
  · rw [if_neg hc, if_neg hc]; norm_num

/-- The product at entry `(a, r, o)`: the table's entry `(bin (a, r), o)`, when that bin is a number below 1024. -/
theorem prod_apply (a : Fin 8) (r : Fin 512) (o : Fin 8) (hn : (TimeBin.bin (x0 (ix2 a r))).toNat < 1024) :
    shapeCast S8x512x8 (matmul dot_S4096x1024_S1024x8_S4096x8_1_0_0_1_n_n none (onehot x0)
        (shapeCast S1024x8 x1 shapeCasts_S1024x8_S1024x8 : FVec Ideal S1024x8 .bf16) (constant S4096x8 .f32 0x00000000#32)) shapeCasts_S4096x8_S8x512x8 (ix3 a r o)
      = x1 (ix2 (⟨(TimeBin.bin (x0 (ix2 a r))).toNat, hn⟩ : Fin 1024) o) := by
  have hR : a.val * 512 + r.val < 4096 := by have := a.isLt; have := r.isLt; omega
  rw [shapeCast_apply _ shapeCasts_S4096x8_S8x512x8 (ix3 a r o) (ix2 (⟨a.val * 512 + r.val, hR⟩ : Fin 4096) o) (by
    rw [Shape.rowMajor_val_two, Shape.rowMajor_val_three]
    show (a.val * 512 + r.val) * 8 + o.val = (a.val * 512 + r.val) * 8 + o.val
    rfl)]
  rw [shapeCast_self]
  refine (DotRecord.matmul_zero_apply (M := 4096) (K := 1024) (N := 8) dot_S4096x1024_S1024x8_S4096x8_1_0_0_1_n_n
    rfl rfl rfl rfl rfl rfl (onehot x0) x1 none ⟨a.val * 512 + r.val, hR⟩ o).trans ?_
  refine (Finset.sum_congr rfl fun k _ =>
    congrArg (· * x1 (ix2 k o)) (onehot_apply x0 a r k ⟨a.val * 512 + r.val, hR⟩ rfl)).trans ?_
  exact sum_onehot (n := 1024) (TimeBin.bin (x0 (ix2 a r))) hn (by omega) (fun k => x1 (ix2 k o))

/-- The bias row broadcast over the block, at entry `(a, r, o)`: the row's entry `o`. -/
theorem bias_apply (a : Fin 8) (r : Fin 512) (o : Fin 8) :
    broadcastTo S8x512x8 (shapeCast S1x1x8 (shapeCast S1x8 x2 shapeCasts_S1x8_S1x8) shapeCasts_S1x8_S1x1x8) broadcasts_S1x1x8_S8x512x8 (ix3 a r o)
      = x2 (ix2 (0 : Fin 1) o) := by
  rw [broadcastTo_apply _ broadcasts_S1x1x8_S8x512x8 (ix3 a r o) (ix3 (0 : Fin 1) (0 : Fin 1) o) (fun ax => by
    match ax with
    | ⟨0, _⟩ => show (0 : ℕ) = if (1 : ℕ) = 1 then 0 else a.val; rw [if_pos rfl]
    | ⟨1, _⟩ => show (0 : ℕ) = if (1 : ℕ) = 1 then 0 else r.val; rw [if_pos rfl]
    | ⟨2, _⟩ => show o.val = if (8 : ℕ) = 1 then 0 else o.val; rw [if_neg (by omega)])]
  rw [shapeCast_apply _ shapeCasts_S1x8_S1x1x8 (ix3 (0 : Fin 1) (0 : Fin 1) o) (ix2 (0 : Fin 1) o) (by
    rw [Shape.rowMajor_val_two, Shape.rowMajor_val_three]
    show 0 * 8 + o.val = (0 * 1 + 0) * 8 + o.val
    omega)]
  rw [shapeCast_self]

/-- THE STORED VALUE AT ENTRY `(a, r, o)`: the table's entry `(bin (a, r), o)` plus the bias at `o`, when the bin of
    time `(a, r)` is a number below 1024. -/
theorem pay_apply (a : Fin 8) (r : Fin 512) (o : Fin 8) (hn : (TimeBin.bin (x0 (ix2 a r))).toNat < 1024) :
    k0_pay1 x0 x1 x2 (ix3 a r o)
      = x1 (ix2 (⟨(TimeBin.bin (x0 (ix2 a r))).toNat, hn⟩ : Fin 1024) o) + x2 (ix2 (0 : Fin 1) o) := by
  rw [pay_eq]
  show _ + _ = _
  rw [prod_apply x0 x1 a r o hn, bias_apply x2 a r o]

end Cert.KernelIdeal.Embed

end
-- ==== Proof.LibLay2.lean ====
/-
  Two layout operations on rank-2 arrays read at an entry: the transpose, and a unit-stride block cut out of an
  array with the block's offset added to the coordinates. Every extent generic.
-/
import Idealize.ShloMosaic.Lib.ValueIdx
import Idealize.ShloMosaic.Lib.Pipeline.Value

namespace Lay2

open Idealize.ShloMosaic Idealize.ShloMosaic.ValueIdx

/-- The transpose of an [a, b] array at entry (i, j) is the array at (j, i). -/
theorem transpose_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine Idealize.ShloMosaic.transpose_apply [1, 0] x h (ix2 i j) (ix2 j i) fun c => ?_
  match c with
  | ⟨0, _⟩ => rfl
  | ⟨1, _⟩ => rfl

/-- A unit-stride block of extents [c, d] cut out of an [a, b] array at offsets (o₀, o₁), at entry (i, j), is the
    array at (o₀ + i, o₁ + j). -/
theorem slice_apply {α : Type} {a b c d : ℕ} (o₀ o₁ : ℕ) (x : (⟨2, ![a, b]⟩ : Shape).Idx → α)
    (h : (⟨2, ![a, b]⟩ : Shape).Slices ![o₀, o₁] ⟨2, ![c, d]⟩) (i : Fin c) (j : Fin d)
    (hi : o₀ + i.val < a) (hj : o₁ + j.val < b) :
    extractStridedSlice ⟨2, ![c, d]⟩ ![o₀, o₁] x h (ix2 i j) = x (ix2 ⟨o₀ + i.val, hi⟩ ⟨o₁ + j.val, hj⟩) := by
  refine extractStridedSlice_apply ![o₀, o₁] x h (ix2 i j) (ix2 ⟨o₀ + i.val, hi⟩ ⟨o₁ + j.val, hj⟩) fun c => ?_
  match c with
  | ⟨0, _⟩ => rfl
  | ⟨1, _⟩ => rfl

end Lay2
-- ==== Proof.KHost.lean ====
/-
  What the three arrays the kernel's windows stage hold when the kernel is launched, read at an entry.

  Before the launch the program cuts the last column off the time array, transposes the weight table, pads it
  with 24 zero rows to 1024 rows, and views the bias as one row. So the time window's array at `(P, q)` is the
  time array at `(P, q)`; the table window's array at `(n, o)`, for a row `n < 1000`, is the weight table at
  `(o, n)`; and the bias window's array at `(0, o)` is the bias at `o`.
-/
import proofs.«150341_j70755291234328_1_alg».proof.Proof.Gen.KernelIdeal.Frame
import proofs.«150341_j70755291234328_1_alg».proof.Proof.LibLay2
import Idealize.ShloMosaic.Lib.Pipeline.Value
import Idealize.ShloMosaic.Lib.KernelVsHost
import Idealize.ShloMosaic.Lib.StableHlo.Run

noncomputable section

namespace Cert.KernelIdeal.Embed

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-- The time window's array at launch: the time array without its last column. -/
theorem V_times (c : Dev nD) :
    (V m c main_v0 : S4096x512.Idx → EReal)
      = extractStridedSlice S4096x512 ![0, 0] (m ((c : Thread nD τ).loc main_arg1)) slices_S4096x513_S4096x512_0_0 := by
  dsimp only [V]
  simp only [hostOps0, hostOps0_1, hostOps0_2, List.flatten_cons, List.flatten_nil, List.append_nil, List.cons_append,
    List.nil_append]
  after_results

/-- The table window's array at launch: the transposed weight table, padded below with 24 rows of the
    integer `0` converted to a float. -/
theorem V_table (c : Dev nD) :
    (V m c main_v3 : S1024x8.Idx → EReal)
      = pad S1024x8 ![0, 0] ![24, 0] ![0, 0]
          (truncf .bf16 (transpose S1000x8 [1, 0] (m ((c : Thread nD τ).loc main_arg2)) transposes_S8x1000_S1000x8_1_0) bitsLt_bf16_f32)
          (sitofp (F := Ideal) .bf16 (constantI S_ 32 0#32)) pads_S1000x8_S1024x8_0240_000 h_S_ := by
  dsimp only [V]
  simp only [hostOps0, hostOps0_1, hostOps0_2, List.flatten_cons, List.flatten_nil, List.append_nil, List.cons_append,
    List.nil_append]
  after_results
  rfl

/-- The bias window's array at launch: the bias viewed as one row. -/
theorem V_bias (c : Dev nD) :
    (V m c main_v4 : S1x8.Idx → EReal)
      = shapeCast S1x8 (m ((c : Thread nD τ).loc main_arg3)) shapeCasts_S8_S1x8 := by
  dsimp only [V]
  simp only [hostOps0, hostOps0_1, hostOps0_2, List.flatten_cons, List.flatten_nil, List.append_nil, List.cons_append,
    List.nil_append]
  after_results
  rfl

/-- The time array without its last column, at `(P, q)`: the time array at `(P, q)`. -/
theorem times_apply (ts : S4096x513.Idx → EReal) (P : Fin 4096) (q : Fin 512) :
    extractStridedSlice S4096x512 ![0, 0] ts slices_S4096x513_S4096x512_0_0 (ix2 P q) = ts (ix2 P (Fin.castSucc q)) :=
  extractStridedSlice_apply ![0, 0] ts slices_S4096x513_S4096x512_0_0 (ix2 P q) (ix2 P (Fin.castSucc q)) fun a => by
    match a with
    | ⟨0, _⟩ => show P.val = 0 + P.val; omega
    | ⟨1, _⟩ => show q.val = 0 + q.val; omega

/-- The padded transposed table at `(n, o)`, for a row `n < 1000`: the weight table at `(o, n)`. -/
theorem table_apply (W : S8x1000.Idx → EReal) (n : Fin 1000) (o : Fin 8) :
    pad S1024x8 ![0, 0] ![24, 0] ![0, 0]
        (truncf .bf16 (transpose S1000x8 [1, 0] W transposes_S8x1000_S1000x8_1_0) bitsLt_bf16_f32 : FVec Ideal S1000x8 .bf16)
        (sitofp (F := Ideal) .bf16 (constantI S_ 32 0#32)) pads_S1000x8_S1024x8_0240_000 h_S_
        (ix2 (Fin.castLE (by omega : 1000 ≤ 1024) n) o)
      = W (ix2 o n) := by
  rw [pad_apply_of_inside ![0, 0] ![24, 0] ![0, 0] _ _ pads_S1000x8_S1024x8_0240_000 h_S_
    (ix2 (Fin.castLE (by omega : 1000 ≤ 1024) n) o) (ix2 n o) (fun a => by
      match a with
      | ⟨0, _⟩ => show n.val = 0 + n.val * (0 + 1); omega
      | ⟨1, _⟩ => show o.val = 0 + o.val * (0 + 1); omega)]
  show transpose S1000x8 [1, 0] W transposes_S8x1000_S1000x8_1_0 (ix2 n o) = W (ix2 o n)
  exact Lay2.transpose_apply W transposes_S8x1000_S1000x8_1_0 n o

/-- The bias viewed as one row, at `(0, o)`: the bias at `o`. -/
theorem biasrow_apply (b : S8.Idx → EReal) (o : Fin 8) :
    shapeCast S1x8 b shapeCasts_S8_S1x8 (ix2 (0 : Fin 1) o) = b (ix1 o) :=
  shapeCast_apply b shapeCasts_S8_S1x8 (ix2 (0 : Fin 1) o) (ix1 o) (by
    rw [Shape.rowMajor_val_one, Shape.rowMajor_val_two]
    show o.val = 0 * 8 + o.val
    omega)

end Cert.KernelIdeal.Embed

end
-- ==== Proof.KBlocks.lean ====
/-
  From the blocks to the whole output array.

  Grid point `t` (of 512) stages rows `8t … 8t + 7` of the time array, the whole padded table and the bias row, and
  writes back rows `8t … 8t + 7` of the output. At entry `(a, r, o)` of the block it writes the table's row
  "bin of time `(8t + a, r)`" at `o` plus the bias at `o`; with the bins in range that row is a row of the
  unpadded table, that is a column of the weight table: the entry is the embedding at `(8t + a, r, o)`. The 512
  blocks tile the output array (row `P` lies in block `P / 8`), so the array ends holding the embedding.
-/
import proofs.«150341_j70755291234328_1_alg».proof.Proof.Gen.KernelIdeal.Value
import proofs.«150341_j70755291234328_1_alg».proof.Proof.KPay
import proofs.«150341_j70755291234328_1_alg».proof.Proof.KHost

set_option maxRecDepth 16384

noncomputable section

namespace Cert.KernelIdeal.Embed

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the time window and the output window are at block `t` on their row axis,
    every other block index is `0`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The time window's block at point `t`, entry `(a, r)`: the window's array at `(8t + a, r)`. -/
theorem blk0_read (c : Dev nD) (t : Fin cfg0.N) (a : Fin 8) (r : Fin 512) (hP : t.val * 8 + a.val < 4096) :
    iblk m c 0 t (ix2 a r) = V m c main_v0 (ix2 (⟨t.val * 8 + a.val, hP⟩ : Fin 4096) r) := by
  obtain ⟨e0, e1, -⟩ := idx_facts t
  have he : ((cfg0.win 0).blk t).view.emb (ix2 a r) = ix2 (⟨t.val * 8 + a.val, hP⟩ : Fin 4096) r := by
    funext ax; apply Fin.ext
    match ax with
    | ⟨0, _⟩ => show win0_0.index t (0 : Fin 2) * 8 + 1 * a.val = t.val * 8 + a.val; rw [e0]; omega
    | ⟨1, _⟩ => show win0_0.index t (1 : Fin 2) * 512 + 1 * r.val = r.val; rw [e1]; omega
  show V m c main_v0 (((cfg0.win 0).blk t).view.emb (ix2 a r)) = _
  rw [he]

/-- The table window's block at any point, entry `(k, o)`: the window's array at `(k, o)`. -/
theorem blk1_read (c : Dev nD) (t : Fin cfg0.N) (k : Fin 1024) (o : Fin 8) :
    iblk m c 1 t (ix2 k o) = V m c main_v3 (ix2 k o) := by
  obtain ⟨-, -, e0, e1, -⟩ := idx_facts t
  have he : ((cfg0.win 1).blk t).view.emb (ix2 k o) = ix2 k o := by
    funext ax; apply Fin.ext
    match ax with
    | ⟨0, _⟩ => show win0_1.index t (0 : Fin 2) * 1024 + 1 * k.val = k.val; rw [e0]; omega
    | ⟨1, _⟩ => show win0_1.index t (1 : Fin 2) * 8 + 1 * o.val = o.val; rw [e1]; omega
  show V m c main_v3 (((cfg0.win 1).blk t).view.emb (ix2 k o)) = _
  rw [he]

/-- The bias window's block at any point, entry `(0, o)`: the window's array at `(0, o)`. -/
theorem blk2_read (c : Dev nD) (t : Fin cfg0.N) (o : Fin 8) :
    iblk m c 2 t (ix2 (0 : Fin 1) o) = V m c main_v4 (ix2 (0 : Fin 1) o) := by
  obtain ⟨-, -, -, -, e0, e1, -⟩ := idx_facts t
  have he : ((cfg0.win 2).blk t).view.emb (ix2 (0 : Fin 1) o) = ix2 (0 : Fin 1) o := by
    funext ax; apply Fin.ext
    match ax with
    | ⟨0, _⟩ => show win0_2.index t (0 : Fin 2) * 1 + 1 * 0 = 0; rw [e0]
    | ⟨1, _⟩ => show win0_2.index t (1 : Fin 2) * 8 + 1 * o.val = o.val; rw [e1]; omega
  show V m c main_v4 (((cfg0.win 2).blk t).view.emb (ix2 (0 : Fin 1) o)) = _
  rw [he]

/-- ONE POINT'S VALUE. Let the three loaded blocks be rows `8T … 8T + 7` of the time array, the padded transposed
    weight table and the bias row, and let the bins be in range. Then the stored value at block entry `j` is the
    embedding at the array entry `i` that lies `8T` rows further down. -/
theorem point_value (x0 : Vec Ideal S8x512 .f32) (x1 : Vec Ideal S1024x8 .bf16) (x2 : Vec Ideal S1x8 .f32)
    (ts : S4096x513.Idx → EReal) (W : S8x1000.Idx → EReal) (b : S8.Idx → EReal) (T : ℕ) (hT : T < 512)
    (h0 : ∀ (a : Fin 8) (r : Fin 512),
      x0 (ix2 a r) = ts (ix2 (⟨T * 8 + a.val, by have := a.isLt; omega⟩ : Fin 4096) (Fin.castSucc r)))
    (h1 : ∀ (n : Fin 1000) (o : Fin 8), x1 (ix2 (Fin.castLE (by omega : 1000 ≤ 1024) n) o) = W (ix2 o n))
    (h2 : ∀ o : Fin 8, x2 (ix2 (0 : Fin 1) o) = b (ix1 o))
    (hin : TimeBin.InRange ts)
    (j : S8x512x8.Idx) (i : S4096x512x8.Idx)
    (hi0 : (i 0).val = T * 8 + (j 0).val) (hi1 : (i 1).val = (j 1).val) (hi2 : (i 2).val = (j 2).val) :
    k0_pay1 x0 x1 x2 j = TimeBin.emb ts W b i := by
  obtain ⟨a, r, o, rfl⟩ : ∃ (a : Fin 8) (r : Fin 512) (o : Fin 8), j = ix3 a r o := ⟨j 0, j 1, j 2, eq_ix3 j⟩
  obtain ⟨P, q, o', rfl⟩ : ∃ (P : Fin 4096) (q : Fin 512) (o' : Fin 8), i = ix3 P q o' := ⟨i 0, i 1, i 2, eq_ix3 i⟩
  have hP : T * 8 + a.val < 4096 := by have := a.isLt; omega
  have eP : (⟨T * 8 + a.val, hP⟩ : Fin 4096) = P := Fin.ext hi0.symm
  have eq : r = q := Fin.ext hi1.symm
  have eo : o = o' := Fin.ext hi2.symm
  subst eP eq eo
  have hb0 := TimeBin.bin_nonneg (ts (ix2 (⟨T * 8 + a.val, hP⟩ : Fin 4096) (Fin.castSucc r)))
  have hb1 := hin (⟨T * 8 + a.val, hP⟩ : Fin 4096) r
  have hx : x0 (ix2 a r) = ts (ix2 (⟨T * 8 + a.val, hP⟩ : Fin 4096) (Fin.castSucc r)) := h0 a r
  obtain ⟨hle, -⟩ := TimeBin.toNat_of_range _ hb0 hb1
  have hn : (TimeBin.bin (x0 (ix2 a r))).toNat < 1024 := by rw [hx]; omega
  rw [pay_apply x0 x1 x2 a r o hn, TimeBin.emb_apply, h2 o]
  have hrow : (⟨(TimeBin.bin (x0 (ix2 a r))).toNat, hn⟩ : Fin 1024)
      = Fin.castLE (by omega : 1000 ≤ 1024)
          (TimeBin.row (TimeBin.bin (ts (ix2 (⟨T * 8 + a.val, hP⟩ : Fin 4096) (Fin.castSucc r))))) := by
    apply Fin.ext
    show (TimeBin.bin (x0 (ix2 a r))).toNat = (TimeBin.row _).val
    rw [hx, TimeBin.row_val _ hb0 hb1]
  rw [hrow, h1]

/-- WHAT POINT `t` WRITES BACK is block `t` of the embedding of the argument arrays, when the bins are in range. -/
theorem flushed_eq (c : Dev nD) (hin : TimeBin.InRange (m ((c : Thread nD τ).loc main_arg1))) (t : Fin cfg0.N) :
    (dats m 0 c).flushed 3 t = ((cfg0.win 3).blk t).view.read (Elt Ideal)
      (TimeBin.emb (m ((c : Thread nD τ).loc main_arg1)) (m ((c : Thread nD τ).loc main_arg2))
        (m ((c : Thread nD τ).loc main_arg3))) := by
  have ht : t.val < 512 := lt_of_lt_of_eq t.isLt N_0
  obtain ⟨-, -, -, -, -, -, e0, e1, e2⟩ := idx_facts t
  rw [Value.flushed3]
  unfold out0_3
  rw [View.canon_unit_zero hz3]
  simp only [View.ld_unit_zero (S := S8x512) hz2, View.ld_unit_zero (S := S1024x8) hz2, View.ld_unit_zero (S := S1x8) hz2]
  funext j
  show k0_pay1 (iblk m c 0 t) (iblk m c 1 t) (iblk m c 2 t) j
    = TimeBin.emb (m ((c : Thread nD τ).loc main_arg1)) (m ((c : Thread nD τ).loc main_arg2))
        (m ((c : Thread nD τ).loc main_arg3)) (((cfg0.win 3).blk t).view.emb j)
  refine point_value (iblk m c 0 t) (iblk m c 1 t) (iblk m c 2 t) _ _ _ t.val ht ?_ ?_ ?_ hin j _ ?_ ?_ ?_
  · intro a r
    exact (blk0_read m c t a r _).trans ((congrFun (V_times m c) _).trans (times_apply _ _ r))
  · intro n o
    exact (blk1_read m c t _ o).trans ((congrFun (V_table m c) _).trans (table_apply _ n o))
  · intro o
    exact (blk2_read m c t o).trans ((congrFun (V_bias m c) _).trans (biasrow_apply _ o))
  · show win0_3.index t (0 : Fin 3) * 8 + 1 * (j 0).val = t.val * 8 + (j 0).val; rw [e0]; omega
  · show win0_3.index t (1 : Fin 3) * 512 + 1 * (j 1).val = (j 1).val; rw [e1]; omega
  · show win0_3.index t (2 : Fin 3) * 8 + 1 * (j 2).val = (j 2).val; rw [e2]; omega

/-- An index of the output array is in point `t`'s block iff each coordinate is in the block's range on its axis. -/
theorem mem_blk3 (t : Fin cfg0.N) (i : S4096x512x8.Idx) :
    i ∈ ((cfg0.win 3).blk t).view.set ↔ ∀ a : Fin 3, win0_3.index t a * S8x512x8.size a ≤ (i a).val
      ∧ (i a).val < win0_3.index t a * S8x512x8.size a + S8x512x8.size a := by
  show i ∈ ((View.whole main_v5).slice (win0_3.rect t)).set ↔ _
  rw [View.set_slice_whole, Rect.mem_set_unit]
  exact Iff.rfl

/-- The blocks tile the output array: row `P` lies in the block of point `P / 8`. -/
theorem cover3 (i : S4096x512x8.Idx) :
    ∃ t : Fin cfg0.N, (cfg0.win 3).flush t = true ∧ i ∈ ((cfg0.win 3).blk t).view.set := by
  have hi0 : (i 0).val < 4096 := (i 0).isLt
  have hi1 : (i 1).val < 512 := (i 1).isLt
  have hi2 : (i 2).val < 8 := (i 2).isLt
  have hN : cfg0.N = 512 := N_0
  have hlt : (i 0).val / 8 < cfg0.N := by rw [hN]; omega
  obtain ⟨-, -, -, -, -, -, e0, e1, e2⟩ := idx_facts ⟨(i 0).val / 8, hlt⟩
  refine ⟨⟨(i 0).val / 8, hlt⟩, flush0_3 _, ?_⟩
  rw [mem_blk3]
  intro a
  match a with
  | ⟨0, _⟩ =>
    show win0_3.index ⟨(i 0).val / 8, hlt⟩ (0 : Fin 3) * 8 ≤ (i 0).val
      ∧ (i 0).val < win0_3.index ⟨(i 0).val / 8, hlt⟩ (0 : Fin 3) * 8 + 8
    rw [e0]; show (i 0).val / 8 * 8 ≤ (i 0).val ∧ (i 0).val < (i 0).val / 8 * 8 + 8; omega
  | ⟨1, _⟩ =>
    show win0_3.index ⟨(i 0).val / 8, hlt⟩ (1 : Fin 3) * 512 ≤ (i 1).val
      ∧ (i 1).val < win0_3.index ⟨(i 0).val / 8, hlt⟩ (1 : Fin 3) * 512 + 512
    rw [e1]; omega
  | ⟨2, _⟩ =>
    show win0_3.index ⟨(i 0).val / 8, hlt⟩ (2 : Fin 3) * 8 ≤ (i 2).val
      ∧ (i 2).val < win0_3.index ⟨(i 0).val / 8, hlt⟩ (2 : Fin 3) * 8 + 8
    rw [e2]; omega

/-- THE OUTPUT ARRAY after the run is the embedding of the argument arrays, when the bins are in range. -/
theorem final (c : Dev nD) (hin : TimeBin.InRange (m ((c : Thread nD τ).loc main_arg1))) :
    (dats m 0 c).arrAt 3 cfg0.N
      = TimeBin.emb (m ((c : Thread nD τ).loc main_arg1)) (m ((c : Thread nD τ).loc main_arg2))
          (m ((c : Thread nD τ).loc main_arg3)) :=
  (dats m 0 c).arrAt_eq_of_cover 3 _ (fun t _ => flushed_eq m c hin t) cover3

/-- THE KERNEL'S RUN, READ: with the bins in range on every device, every weakly fair execution terminates with the
    first result at the embedding of the argument arrays, the second at the time array without its last column, and
    the arguments unchanged. -/
theorem run (hin : ∀ c : Dev nD, TimeBin.InRange (m ((c : Thread nD τ).loc main_arg1))) :
    θ_run defs (onTc (τ := τ) (main (F := Ideal))) ⟨m, fun _ => 0, ρ⟩ fun r => ∀ c : Dev nD,
      r.2.mem ((c : Thread nD τ).loc main_v5)
        = TimeBin.emb (m ((c : Thread nD τ).loc main_arg1)) (m ((c : Thread nD τ).loc main_arg2))
            (m ((c : Thread nD τ).loc main_arg3))
      ∧ r.2.mem ((c : Thread nD τ).loc main_v0)
        = extractStridedSlice S4096x512 ![0, 0] (m ((c : Thread nD τ).loc main_arg1)) slices_S4096x513_S4096x512_0_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(Value.post3 m r h c).trans (final m c (hin c)),
      ((h c).1 0).trans (((dats m 0 c).arrAt_in 0 rfl cfg0.N).trans ((A_eq m c 0).trans (V_times m c))),
      Value.kept_main_arg0 m r h c,
      Value.kept_main_arg1 m r h c,
      Value.kept_main_arg2 m r h c,
      Value.kept_main_arg3 m r h c⟩)
    (run_main m ρ)

end Cert.KernelIdeal.Embed

end
-- ==== Proof.PreDecode.lean ====
/-
  The precondition read back: every bin is in range.

  The precondition's last conjunct says that the bin of every time (of the time array without its last column),
  compared signed with `999`, is at most `999`, for all `4096 × 512` times at once (a conjunction over the whole
  array). Read at one entry `(p, q)` it is `bin (ts (p, q)) ≤ 999`.
-/
import proofs.«150341_j70755291234328_1_alg».proof.Pre_finite_inputs
import proofs.«150341_j70755291234328_1_alg».proof.Proof.Gen.Pre_finite_inputs
import proofs.«150341_j70755291234328_1_alg».proof.Proof.Spec
import Idealize.ShloMosaic.Lib.ReduceAll
import Idealize.ShloMosaic.Lib.Pipeline.Value

noncomputable section

namespace Cert.Pre_finite_inputs.Decode

open Cert.Pre_finite_inputs Cert.Pre_finite_inputs.Gen Idealize.ShloMosaic Idealize.ShloMosaic.ValueIdx

instance : Subsingleton S_.Idx := ⟨fun _ _ => funext fun d => d.elim0⟩

/-- The time array without its last column, at `(p, q)`: the time array at `(p, q)`. -/
theorem times_apply (ts : S4096x513.Idx → EReal) (p : Fin 4096) (q : Fin 512) :
    extractStridedSlice S4096x512 ![0, 0] ts slices_S4096x513_S4096x512_0_0 (ix2 p q) = ts (ix2 p (Fin.castSucc q)) :=
  extractStridedSlice_apply ![0, 0] ts slices_S4096x513_S4096x512_0_0 (ix2 p q) (ix2 p (Fin.castSucc q)) fun a => by
    match a with
    | ⟨0, _⟩ => show p.val = 0 + p.val; omega
    | ⟨1, _⟩ => show q.val = 0 + q.val; omega

/-- If the precondition holds of the argument arrays, every bin of the time array is at most `999`. -/
theorem inRange_of_pre (a0 : IVec S4096x512 32) (ts : FVec Ideal S4096x513 .f32) (W : FVec Ideal S8x1000 .f32)
    (b : FVec Ideal S8 .f32) (h : fn (F := Ideal) a0 ts W b = fun _ => 1#1) : TimeBin.InRange ts := by
  intro p q
  have h1 := congrFun h ix0
  dsimp only [fn, fn_part1] at h1
  have h2 := (IntOp.andi_eq_one.1 h1).2
  have h3 := Host.reduce_andi_all _ _ _ _ ix0 h2 (ix2 p q)
  have h4 := IntOp.cmpi_sle.1 h3
  have h5 : (TimeBin.bin (extractStridedSlice S4096x512 ![0, 0] ts slices_S4096x513_S4096x512_0_0 (ix2 p q))).toInt
      ≤ (999#32 : BitVec 32).toInt := h4
  rw [times_apply] at h5
  have h6 : (999#32 : BitVec 32).toInt = 999 := by decide
  omega

end Cert.Pre_finite_inputs.Decode

end
-- ==== Proof.RefOut.lean ====
/-
  The reference's result as one pure function of its argument arrays, stage by stage.

  The time array loses its last column (`times`). Each remaining time `x` falls in the bin
  `⌊(x − 0) / 1000⌋`, raised to at least `0` and converted to a 32-bit word (`bins`). A negative word would be
  wrapped by adding `1000` (`wrapped`), and the words are laid out as a [4096, 512, 1] table of one-coordinate
  row indices (`rowIdx`). An entry is in bounds when its index is between `0` and `999` (`inBounds`, the
  conjunction over the one coordinate). The rows named by the indices are taken from the transposed weight
  table (`taken`); an entry out of bounds reads a NaN instead; the bias is added along the last axis (`refOut`).
-/
import proofs.«150341_j70755291234328_1_alg».proof.Proof.Gen.ReferenceIdeal

noncomputable section

namespace Cert.ReferenceIdeal.RefValue

open Cert.ReferenceIdeal Cert.ReferenceIdeal.Gen Idealize.ShloMosaic

variable {F : FTy → Type} [FloatOps F]

/-- The time array with its last column dropped. -/
def times (ts : FVec F S4096x513 .f32) : FVec F S4096x512 .f32 :=
  extractStridedSlice S4096x512 ![0, 0] ts slices_S4096x513_S4096x512_0_0

/-- The bin word of every time: `⌊(x − 0) / 1000⌋`, raised to at least `0`, converted to a 32-bit integer. -/
def bins (ts : FVec F S4096x513 .f32) : IVec S4096x512 32 :=
  fptosi 32
    (maximumf
      (Host.floor
        (Host.divf
          (subf (times ts) (broadcastInDim S4096x512 ![] bcast_S_S4096x512 (constant S_ .f32 0x00000000#32)))
          (broadcastInDim S4096x512 ![] bcast_S_S4096x512 (constant S_ .f32 0x447A0000#32))))
      (broadcastInDim S4096x512 ![] bcast_S_S4096x512 (constant S_ .f32 0x00000000#32)))

/-- A negative index counts from the end of the table: `i + 1000` where `i < 0`, else `i`. -/
def wrapped (i : IVec S4096x512 32) : IVec S4096x512 32 :=
  select (cmpi .slt i (broadcastInDim S4096x512 ![] bcast_S_S4096x512 (constantI S_ 32 0#32)))
    (addi i (broadcastInDim S4096x512 ![] bcast_S_S4096x512 (constantI S_ 32 1000#32))) i

/-- The indices as a table of one-coordinate row indices. -/
def rowIdx (i : IVec S4096x512 32) : IVec S4096x512x1 32 :=
  broadcastInDim S4096x512x1 ![0, 1] bcast_S4096x512_S4096x512x1_0_1 (wrapped i)

/-- Where the row index is in bounds, `0 ≤ i ≤ 999`: the conjunction over the index's one coordinate. -/
def inBounds (r : IVec S4096x512x1 32) : IVec S4096x512 1 :=
  Host.reduce IntOp.andi
    (andi (cmpi .sge r (broadcastInDim S4096x512x1 ![] bcast_S_S4096x512x1 (constantI S_ 32 0#32)))
      (cmpi .sle r
        (broadcastInDim S4096x512x1 ![0, 1, 2] bcast_S1x1x1_S4096x512x1_0_1_2
          (broadcastInDim S1x1x1 ![2] bcast_S1_S1x1x1_2 (constantI S1 32 999#32)))))
    (constantI S_ 1 1#1) reducesTo_S4096x512x1_S4096x512_d2 h_S_

/-- The rows of the transposed weight table the indices name. -/
def taken (W : FVec F S8x1000 .f32) (r : IVec S4096x512x1 32) : FVec F S4096x512x8 .f32 :=
  Host.gather gather_S1000x8_S4096x512x1_S4096x512x8_2_0_n_n_0_2_18
    (transpose S1000x8 [1, 0] W transposes_S8x1000_S1000x8_1_0) r

/-- The reference's first result: the taken rows (a NaN where the index is out of bounds) plus the bias along the
    last axis. -/
def refOut (ts : FVec F S4096x513 .f32) (W : FVec F S8x1000 .f32) (b : FVec F S8 .f32) : FVec F S4096x512x8 .f32 :=
  addf
    (select (broadcastInDim S4096x512x8 ![0, 1] bcast_S4096x512_S4096x512x8_0_1 (inBounds (rowIdx (bins ts))))
      (taken W (rowIdx (bins ts)))
      (broadcastInDim S4096x512x8 ![] bcast_S_S4096x512x8 (constant S_ .f32 0x7FC00000#32)))
    (broadcastInDim S4096x512x8 ![0, 1, 2] bcast_S1x1x8_S4096x512x8_0_1_2
      (broadcastInDim S1x1x8 ![2] bcast_S8_S1x1x8_2 b))

end Cert.ReferenceIdeal.RefValue

end
-- ==== Proof.RefRun.lean ====
/-
  The reference's @main as the straight line of its 39 operations — the row-gather function and the selection
  it calls written out at their call sites, over the buffers the call names — and its run read back: every
  weakly fair execution terminates with the first result at `refOut` of the three float arguments' launch
  contents, the second result at the time array with its last column dropped, and the four arguments unchanged.
-/
import proofs.«150341_j70755291234328_1_alg».proof.Proof.RefOut
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: thirteen of its own (the bins and the transposed table), the twenty-three of the
    row gather (the selection's one among them), and the bias's two broadcasts and the sum. -/
abbrev ops : List (HloOp τ sig (Elt F)) :=
  [ unary main_arg1 main_v0 ((extractStridedSlice S4096x512 ![0, 0] · slices_S4096x513_S4096x512_0_0) : (⟨S4096x513, .f32⟩ : BufTy).Contents (Elt F) → (⟨S4096x512, .f32⟩ : BufTy).Contents (Elt F)),
    nullary main_cst (constant S_ .f32 0x00000000#32),
    unary main_cst main_v1 (broadcastInDim S4096x512 ![] bcast_S_S4096x512 : (⟨S_, .f32⟩ : BufTy).Contents (Elt F) → (⟨S4096x512, .f32⟩ : BufTy).Contents (Elt F)),
    binary main_v0 main_v1 main_v2 (subf : (⟨S4096x512, .f32⟩ : BufTy).Contents (Elt F) → (⟨S4096x512, .f32⟩ : BufTy).Contents (Elt F) → (⟨S4096x512, .f32⟩ : BufTy).Contents (Elt F)),
    nullary main_cst_0 (constant S_ .f32 0x447A0000#32),
    unary main_cst_0 main_v3 (broadcastInDim S4096x512 ![] bcast_S_S4096x512 : (⟨S_, .f32⟩ : BufTy).Contents (Elt F) → (⟨S4096x512, .f32⟩ : BufTy).Contents (Elt F)),
    binary main_v2 main_v3 main_v4 (Host.divf : (⟨S4096x512, .f32⟩ : BufTy).Contents (Elt F) → (⟨S4096x512, .f32⟩ : BufTy).Contents (Elt F) → (⟨S4096x512, .f32⟩ : BufTy).Contents (Elt F)),
    unary main_v4 main_v5 (Host.floor : (⟨S4096x512, .f32⟩ : BufTy).Contents (Elt F) → (⟨S4096x512, .f32⟩ : BufTy).Contents (Elt F)),
    nullary main_cst_1 (constant S_ .f32 0x00000000#32),
    unary main_cst_1 main_v6 (broadcastInDim S4096x512 ![] bcast_S_S4096x512 : (⟨S_, .f32⟩ : BufTy).Contents (Elt F) → (⟨S4096x512, .f32⟩ : BufTy).Contents (Elt F)),
    binary main_v5 main_v6 main_v7 (maximumf : (⟨S4096x512, .f32⟩ : BufTy).Contents (Elt F) → (⟨S4096x512, .f32⟩ : BufTy).Contents (Elt F) → (⟨S4096x512, .f32⟩ : BufTy).Contents (Elt F)),
    unary main_v7 main_v8 (fptosi 32 : (⟨S4096x512, .f32⟩ : BufTy).Contents (Elt F) → (⟨S4096x512, .i32⟩ : BufTy).Contents (Elt F)),
    unary main_arg2 main_v9 ((transpose S1000x8 [1, 0] · transposes_S8x1000_S1000x8_1_0) : (⟨S8x1000, .f32⟩ : BufTy).Contents (Elt F) → (⟨S1000x8, .f32⟩ : BufTy).Contents (Elt F)),
    TRef.nullary main_call0.c (constantI S_ 32 0#32),
    TRef.unary main_call0.c main_call0.v0 (broadcastInDim S4096x512 ![] bcast_S_S4096x512),
    TRef.binary (.of main_v8 : TRef sig ⟨S4096x512, .i32⟩) main_call0.v0 main_call0.v1 (cmpi .slt),
    TRef.nullary main_call0.c_0 (constantI S_ 32 1000#32),
    TRef.unary main_call0.c_0 main_call0.v2 (broadcastInDim S4096x512 ![] bcast_S_S4096x512),
    TRef.binary (.of main_v8 : TRef sig ⟨S4096x512, .i32⟩) main_call0.v2 main_call0.v3 addi,
    TRef.ternary main_call0.v1 main_call0.v3 (.of main_v8 : TRef sig ⟨S4096x512, .i32⟩) main_call0.call0.v0 select,
    TRef.unary main_call0.call0.v0 main_call0.v5 (broadcastInDim S4096x512x1 ![0, 1] bcast_S4096x512_S4096x512x1_0_1),
    TRef.nullary main_call0.c_1 (constantI S1 32 999#32),
    TRef.nullary main_call0.c_2 (constantI S_ 32 0#32),
    TRef.unary main_call0.c_2 main_call0.v6 (broadcastInDim S4096x512x1 ![] bcast_S_S4096x512x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x512x1 ![0, 1, 2] bcast_S1x1x1_S4096x512x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x512x1_S4096x512_d2 h_S_),
    TRef.binary (.of main_v9 : TRef sig ⟨S1000x8, .f32⟩) main_call0.v5 main_call0.v13 (fun x i => Host.gather gather_S1000x8_S4096x512x1_S4096x512x8_2_0_n_n_0_2_18 x i),
    TRef.unary main_call0.v12 main_call0.v14 (broadcastInDim S4096x512x8 ![0, 1] bcast_S4096x512_S4096x512x8_0_1),
    TRef.nullary main_call0.cst (constant S_ .f32 0x7FC00000#32),
    TRef.unary main_call0.cst main_call0.v15 (broadcastInDim S4096x512x8 ![] bcast_S_S4096x512x8),
    TRef.ternary main_call0.v14 main_call0.v13 main_call0.v15 main_call0.v16 select,
    unary main_arg3 main_v11 (broadcastInDim S1x1x8 ![2] bcast_S8_S1x1x8_2 : (⟨S8, .f32⟩ : BufTy).Contents (Elt F) → (⟨S1x1x8, .f32⟩ : BufTy).Contents (Elt F)),
    unary main_v11 main_v12 (broadcastInDim S4096x512x8 ![0, 1, 2] bcast_S1x1x8_S4096x512x8_0_1_2 : (⟨S1x1x8, .f32⟩ : BufTy).Contents (Elt F) → (⟨S4096x512x8, .f32⟩ : BufTy).Contents (Elt F)),
    binary main_v10 main_v12 main_v13 (addf : (⟨S4096x512x8, .f32⟩ : BufTy).Contents (Elt F) → (⟨S4096x512x8, .f32⟩ : BufTy).Contents (Elt F) → (⟨S4096x512x8, .f32⟩ : BufTy).Contents (Elt F)) ]

-- thirty-nine binds re-associated: the rewrite under the chain recurses once per statement
set_option maxRecDepth 1024 in
/-- @main is that straight line: the two functions' definitions unfolded at their calls and the call's record at its
    fields, both sides are one chain of operation steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., unary_bufs_sub .., nullary_bufs_sub .., unary_bufs_sub .., binary_bufs_sub .., unary_bufs_sub ..,
    unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub ..⟩

/-- Transport along an equation and back is the identity. -/
theorem cast_roundtrip {α β : Type} (h1 : β = α) (h2 : α = β) (v : α) : cast h1 (cast h2 v) = v := by
  subst h2; rfl

/-- A typed reference at a literal buffer carries the buffer's own type: reading the bin words through it is the
    identity. -/
theorem ofBuf_v8 (h1 h2 h3) (v : IVec S4096x512 32) :
    (TRef.of main_v8 h1 h2 h3 : TRef sig ⟨S4096x512, .i32⟩).ofBuf (Val := Elt F) v = v := rfl
/-- Likewise reading the transposed table. -/
theorem ofBuf_v9 (h1 h2 h3) (v : FVec F S1000x8 .f32) :
    (TRef.of main_v9 h1 h2 h3 : TRef sig ⟨S1000x8, .f32⟩).ofBuf (Val := Elt F) v = v := rfl
/-- Likewise writing the selected rows. -/
theorem toBuf_v10 (h1 h2 h3) (v : FVec F S4096x512x8 .f32) :
    (TRef.of main_v10 h1 h2 h3 : TRef sig ⟨S4096x512x8, .f32⟩).toBuf (Val := Elt F) v = v := rfl

/-- The line's fold at the first result's buffer is `refOut` of the three float arguments' contents: each
    operation's result at its own buffer is its function of its operands' contents, and at any other buffer what was
    there; a value written through a typed reference and read back through it is the value itself. -/
theorem out_eq (V : Valuation τ sig (Elt F)) :
    after ops V (main_v13 : DevRef τ sig)
      = refOut (V (main_arg1 : DevRef τ sig)) (V (main_arg2 : DevRef τ sig)) (V (main_arg3 : DevRef τ sig)) := by
  unfold refOut taken inBounds rowIdx wrapped bins times
  after_results_simp
  simp only [cast_roundtrip]
  rw [toBuf_v10, ofBuf_v8, ofBuf_v9]

/-- The second result is the time array with its last column dropped. -/
theorem times_eq (V : Valuation τ sig (Elt F)) :
    after ops V (main_v0 : DevRef τ sig)
      = extractStridedSlice S4096x512 ![0, 0] (V (main_arg1 : DevRef τ sig)) slices_S4096x513_S4096x512_0_0 := by
  after_results_simp

/-- No operation writes an argument's buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- On every device, for any float values, from any memory with zero counters: every weakly fair execution of
    @main terminates with the first result at `refOut` of the float arguments, the second at the time array with its
    last column dropped, and the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = refOut (m ((c.tc : Thread nD τ).loc main_arg1)) (m ((c.tc : Thread nD τ).loc main_arg2)) (m ((c.tc : Thread nD τ).loc main_arg3))
      ∧ r.2.mem ((c.tc : Thread nD τ).loc main_v0) = extractStridedSlice S4096x512 ![0, 0] (m ((c.tc : Thread nD τ).loc main_arg1)) slices_S4096x513_S4096x512_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v13).trans (out_eq _), (h c main_v0).trans (times_eq _),
      (h c main_arg0).trans (arg0_eq _), (h c main_arg1).trans (arg1_eq _), (h c main_arg2).trans (arg2_eq _),
      (h c main_arg3).trans (arg3_eq _)⟩)
    (run_seq scopedRefs_eq scopedSems_eq defs main (fun _ => ops) main_eq (fun _ => ops_sub) m ρ)

end Cert.ReferenceIdeal.RefValue

end
-- ==== Proof.LibTakeRows.lean ====
/-
  The row gather of a rank-2 table at a rank-3 table of one-coordinate row indices, read at an entry.

  Let `x` be a table of `N` rows of `C` entries and `idx` an `A × B` array of start indices, laid out with a
  third axis of extent `1` that holds the index vector's one component. The gather that takes whole rows (slices of
  sizes `[1, C]`, the row axis collapsed, the result's last axis the one offset axis, the start index naming the row
  axis) has shape `[A, B, C]`; its entry `(p, q, e)` is the table's entry `(r, e)`, where `r` is start index
  `(p, q)` read as a signed integer and clamped into `[0, N - 1]`: a negative index reads row `0`, an index from
  `N` on reads the last row.
  The operand index of entry `(p, q, e)` is, axis by axis, a clamped start plus a batching coordinate plus an offset
  coordinate. On the row axis the start is the clamped index (the slice there has size `1`, so the bound is
  `N - 1`), there is no batching axis, and the axis is collapsed, so its offset is `0`. On the column axis the start
  index names nothing, so the start is `0`, and the offset is the result's last coordinate `e`. Every extent is
  generic.
-/
import Idealize.ShloMosaic.Lib.ValueIdx

namespace TakeRows

open Idealize.ShloMosaic Idealize.ShloMosaic.ValueIdx

variable {α : Type}

/-- The dimension numbers of the row gather, for a table `[N, C]`, start indices `[A, B, 1]` and a result
    `[A, B, C]`: offset axes `[2]`, collapsed axes `[0]`, no batching axes, start index map `[0]`, the index
    vector on axis `2`, slices of sizes `[1, C]`. Their side conditions `wf` are decided on a program's literal
    shapes. -/
abbrev rowDims (N A B C : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The row gather under the literal record, at entry `(p, q, e)`: the table at row "start index `(p, q)`, read
    signed and clamped into `[0, N - 1]`" and column `e`. -/
theorem rowDims_gather_apply {N A B C w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (p : Fin A) (q : Fin B) (e : Fin C) :
    Host.gather (rowDims N A B C wf) x idx (ix3 p q e)
      = x (ix2 (⟨min (idx (ix3 p q (0 : Fin 1))).toInt.toNat (N - 1), by omega⟩ : Fin N) e) := by
  unfold Host.gather
  congr 1
  funext a
  refine Fin.ext ?_
  match a with
  | ⟨0, _⟩ =>
    show (rowDims N A B C wf).start (ix3 p q e) idx 0 + (rowDims N A B C wf).batchCoord (ix3 p q e) 0
        + (rowDims N A B C wf).offCoord (ix3 p q e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N A B C wf).startIndexMap from List.mem_singleton.mpr rfl)]
    have hsi : (rowDims N A B C wf).siIdx (ix3 p q e) ⟨List.idxOf (0 : Fin 2) (rowDims N A B C wf).startIndexMap,
        List.idxOf_lt_length_iff.2 (List.mem_singleton.mpr rfl)⟩ = ix3 p q (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims N A B C wf).start (ix3 p q e) idx 1 + (rowDims N A B C wf).batchCoord (ix3 p q e) 1
        + (rowDims N A B C wf).offCoord (ix3 p q e) 1 = e.val
    have h10 : (1 : Fin 2) ∉ [(0 : Fin 2)] := by decide
    have h1 : (1 : Fin 2) ∉ (rowDims N A B C wf).startIndexMap := h10
    have hk : (1 : Fin 2) ∈ (rowDims N A B C wf).sKept :=
      (GatherDims.mem_sKept _ _).mpr ⟨h10, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- A record with the row gather's seven fields is the literal record. -/
theorem eq_rowDims {N A B C : Nat} (d : GatherDims ⟨2, ![N, C]⟩ ⟨3, ![A, B, 1]⟩ ⟨3, ![A, B, C]⟩)
    (h1 : d.offsetDims = [2]) (h2 : d.collapsedSliceDims = [0]) (h3 : d.operandBatchingDims = [])
    (h4 : d.startIndicesBatchingDims = []) (h5 : d.startIndexMap = [0]) (h6 : d.indexVectorDim = 2)
    (h7 : d.sliceSizes = ![1, C]) :
    ∃ wf, d = rowDims N A B C wf := by
  obtain ⟨od, cd, ob, sb, sm, iv, ss, wf⟩ := d
  simp only at h1 h2 h3 h4 h5 h6 h7
  subst h1 h2 h3 h4 h5 h6 h7
  exact ⟨wf, rfl⟩

/-- THE ROW GATHER READ AT `(p, q, e)`: under any record whose lists are the row gather's, entry `(p, q, e)` of the
    result is the table at row "start index `(p, q)`, read signed and clamped into `[0, N - 1]`" and column `e`. -/
theorem gather_apply {N A B C w : Nat} (hN : 0 < N) (d : GatherDims ⟨2, ![N, C]⟩ ⟨3, ![A, B, 1]⟩ ⟨3, ![A, B, C]⟩)
    (h1 : d.offsetDims = [2]) (h2 : d.collapsedSliceDims = [0]) (h3 : d.operandBatchingDims = [])
    (h4 : d.startIndicesBatchingDims = []) (h5 : d.startIndexMap = [0]) (h6 : d.indexVectorDim = 2)
    (h7 : d.sliceSizes = ![1, C])
    (x : (⟨2, ![N, C]⟩ : Shape).Idx → α) (idx : IVec ⟨3, ![A, B, 1]⟩ w) (p : Fin A) (q : Fin B) (e : Fin C) :
    Host.gather d x idx (ix3 p q e)
      = x (ix2 (⟨min (idx (ix3 p q (0 : Fin 1))).toInt.toNat (N - 1), by omega⟩ : Fin N) e) := by
  obtain ⟨wf, rfl⟩ := eq_rowDims d h1 h2 h3 h4 h5 h6 h7
  exact rowDims_gather_apply hN wf x idx p q e

end TakeRows
-- ==== Proof.LibAndAll.lean ====
/-
  A conjunction over an axis whose operand is true everywhere.

  A reduction by `and` of a one-bit array, started from a one-bit constant, folds the operand's entries that drop to a
  result index into the constant. When the constant is `1` and every such entry is `1`, the result is `1`: the fold
  starts at `1` and `1 and 1 = 1` at every step. Every shape is generic.
-/
import Idealize.ShloMosaic.PureOps.Reduce

namespace AndAll

open Idealize.ShloMosaic

/-- A left fold by `and` that starts at `1` and meets only `1`s ends at `1`. -/
theorem foldl_andi_of_all_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, h => by
    show l.foldl (fun r n => IntOp.andi r (f n)) (IntOp.andi init (f a)) = 1#1
    refine foldl_andi_of_all_one f l _ ?_ fun n hn => h n (List.mem_cons_of_mem _ hn)
    rw [hi, h a List.mem_cons_self]
    rfl

/-- A reduction by `and` from an initial value `1` is `1` at `j` when the operand is `1` at every index that drops
    to `j`. -/
theorem reduce_andi_of_all_one {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, h.drop i = j → x i = 1#1) :
    Host.reduce IntOp.andi x init h hu j = 1#1 := by
  rw [Host.reduce_eq_foldl]
  exact foldl_andi_of_all_one x _ _ hinit fun i hi => hx i (of_decide_eq_true (List.mem_filter.1 hi).2)

end AndAll
-- ==== Proof.RefRead.lean ====
/-
  The reference's result is the embedding, entry by entry.

  Each stage of `refOut` is read at explicit coordinates. The dropped-column block of the time array at `(p, q)` is
  the time array at `(p, q)` (`times_apply`); the bin word there is `TimeBin.bin` of that time (`bins_apply`). A bin
  is never negative, so the wrap-around of negative indices leaves it alone (`wrapped_apply`), and the index table at
  `(p, q, 0)` holds the bin (`rowIdx_bins_apply`). With every bin at most `999` each index is in bounds, so the
  conjunction over the index's one coordinate is `1` everywhere (`inBounds_eq_one`) and the select keeps the taken
  row. The taken row at `(p, q, o)` is the weight table at `(o, row)`, `row` the index clamped into `[0, 999]`
  (`taken_apply`: the row gather, then the transpose), and the bias broadcast along the last axis reads `b o`
  (`bias_apply`).
-/
import proofs.«150341_j70755291234328_1_alg».proof.Proof.RefOut
import proofs.«150341_j70755291234328_1_alg».proof.Proof.Spec
import proofs.«150341_j70755291234328_1_alg».proof.Proof.LibLay2
import proofs.«150341_j70755291234328_1_alg».proof.Proof.LibTakeRows
import proofs.«150341_j70755291234328_1_alg».proof.Proof.LibAndAll
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## Words: the three signed comparisons the bounds test makes -/

/-- A word that reads signed as at least `0` is not below `0`. -/
theorem slt_zero_of_nonneg (x : BitVec 32) (h : 0 ≤ x.toInt) : IntOp.cmpi .slt x 0#32 = 0#1 := by
  have h0 : (0#32 : BitVec 32).toInt = 0 := by decide
  have hb : x.slt 0#32 = false := by
    refine Bool.eq_false_iff.mpr fun hlt => ?_
    have hl := BitVec.slt_iff_toInt_lt.mp hlt
    rw [h0] at hl
    omega
  show BitVec.ofBool (x.slt 0#32) = 0#1
  rw [hb]; rfl

/-- A word that reads signed as at least `0` passes the test `≥ 0`. -/
theorem sge_zero_of_nonneg (x : BitVec 32) (h : 0 ≤ x.toInt) : IntOp.cmpi .sge x 0#32 = 1#1 := by
  have h0 : (0#32 : BitVec 32).toInt = 0 := by decide
  have hb : (0#32 : BitVec 32).sle x = true := BitVec.sle_iff_toInt_le.mpr (by rw [h0]; exact h)
  show BitVec.ofBool ((0#32 : BitVec 32).sle x) = 1#1
  rw [hb]; rfl

/-- A word that reads signed as at most `999` passes the test `≤ 999`. -/
theorem sle_of_le (x : BitVec 32) (h : x.toInt ≤ 999) : IntOp.cmpi .sle x 999#32 = 1#1 := by
  have h0 : (999#32 : BitVec 32).toInt = 999 := by decide
  have hb : x.sle 999#32 = true := BitVec.sle_iff_toInt_le.mpr (by rw [h0]; exact h)
  show BitVec.ofBool (x.sle 999#32) = 1#1
  rw [hb]; rfl

/-! ## The stages at an entry -/

/-- The time array without its last column, at `(p, q)`, is the time array at `(p, q)`. -/
theorem times_apply (ts : FVec Ideal S4096x513 .f32) (p : Fin 4096) (q : Fin 512) :
    times ts (ix2 p q) = ts (ix2 p (Fin.castSucc q)) := by
  unfold times
  refine extractStridedSlice_apply ![0, 0] ts slices_S4096x513_S4096x512_0_0 (ix2 p q) (ix2 p (Fin.castSucc q)) fun a => ?_
  match a with
  | ⟨0, _⟩ => exact (Nat.zero_add _).symm
  | ⟨1, _⟩ => exact (Nat.zero_add _).symm

/-- The bin word at `(p, q)` is the bin of the time at `(p, q)`. -/
theorem bins_apply (ts : FVec Ideal S4096x513 .f32) (p : Fin 4096) (q : Fin 512) :
    bins ts (ix2 p q) = TimeBin.bin (ts (ix2 p (Fin.castSucc q))) := by
  have ht := times_apply ts p q
  show Ideal.fptosi 32 (max (Ideal.liftRound Int.floor (Ideal.div (times ts (ix2 p q) - Ideal.ofBits .f32 0x00000000#32)
      (Ideal.ofBits .f32 0x447A0000#32))) (Ideal.ofBits .f32 0x00000000#32)) = _
  rw [ht]
  rfl

/-- An index that is not negative is left alone by the wrap-around. -/
theorem wrapped_apply (i : IVec S4096x512 32) (p : Fin 4096) (q : Fin 512) (h : 0 ≤ (i (ix2 p q)).toInt) :
    wrapped i (ix2 p q) = i (ix2 p q) := by
  unfold wrapped
  rw [select_apply]
  have hc : cmpi .slt i (broadcastInDim S4096x512 ![] bcast_S_S4096x512 (constantI S_ 32 0#32)) (ix2 p q) = 0#1 :=
    slt_zero_of_nonneg _ h
  rw [hc, select_zero]

/-- The index table at `(p, q, z)` is the index array at `(p, q)`. -/
theorem rowIdx_apply (i : IVec S4096x512 32) (p : Fin 4096) (q : Fin 512) (z : Fin 1) :
    rowIdx i (ix3 p q z) = wrapped i (ix2 p q) := by
  unfold rowIdx
  refine broadcastInDim_apply _ _ _ (ix3 p q z) (ix2 p q) fun a => ?_
  match a with
  | ⟨0, _⟩ => rfl
  | ⟨1, _⟩ => rfl

/-- The index table of the bins at `(p, q, z)` is the bin of the time at `(p, q)`. -/
theorem rowIdx_bins_apply (ts : FVec Ideal S4096x513 .f32) (p : Fin 4096) (q : Fin 512) (z : Fin 1) :
    rowIdx (bins ts) (ix3 p q z) = TimeBin.bin (ts (ix2 p (Fin.castSucc q))) := by
  rw [rowIdx_apply, wrapped_apply _ p q (by rw [bins_apply]; exact TimeBin.bin_nonneg _), bins_apply]

/-- With the bins in range every entry of the index table lies in `[0, 999]`. -/
theorem rowIdx_range (ts : FVec Ideal S4096x513 .f32) (h : TimeBin.InRange ts) (i : S4096x512x1.Idx) :
    0 ≤ (rowIdx (bins ts) i).toInt ∧ (rowIdx (bins ts) i).toInt ≤ 999 := by
  obtain ⟨p, q, z, rfl⟩ : ∃ (p : Fin 4096) (q : Fin 512) (z : Fin 1), i = ix3 p q z := ⟨i 0, i 1, i 2, eq_ix3 i⟩
  rw [rowIdx_bins_apply]
  exact ⟨TimeBin.bin_nonneg _, h p q⟩

/-- Where an index lies in `[0, 999]` both bounds tests pass. -/
theorem bounds_apply (r : IVec S4096x512x1 32) (i : S4096x512x1.Idx) (h0 : 0 ≤ (r i).toInt) (h1 : (r i).toInt ≤ 999) :
    andi (cmpi .sge r (broadcastInDim S4096x512x1 ![] bcast_S_S4096x512x1 (constantI S_ 32 0#32)))
      (cmpi .sle r
        (broadcastInDim S4096x512x1 ![0, 1, 2] bcast_S1x1x1_S4096x512x1_0_1_2
          (broadcastInDim S1x1x1 ![2] bcast_S1_S1x1x1_2 (constantI S1 32 999#32)))) i = 1#1 := by
  show IntOp.andi (IntOp.cmpi .sge (r i) 0#32) (IntOp.cmpi .sle (r i) 999#32) = 1#1
  rw [sge_zero_of_nonneg _ h0, sle_of_le _ h1]
  rfl

/-- With every index in `[0, 999]` the in-bounds mask is `1` everywhere. -/
theorem inBounds_eq_one (r : IVec S4096x512x1 32) (hr : ∀ i, 0 ≤ (r i).toInt ∧ (r i).toInt ≤ 999)
    (j : S4096x512.Idx) : inBounds r j = 1#1 := by
  unfold inBounds
  exact AndAll.reduce_andi_of_all_one _ _ _ _ j rfl fun i _ => bounds_apply r i (hr i).1 (hr i).2

/-- The mask along the last axis, with the bins in range, is `1` at every entry. -/
theorem mask_apply (ts : FVec Ideal S4096x513 .f32) (h : TimeBin.InRange ts) (p : Fin 4096) (q : Fin 512) (o : Fin 8) :
    broadcastInDim S4096x512x8 ![0, 1] bcast_S4096x512_S4096x512x8_0_1 (inBounds (rowIdx (bins ts))) (ix3 p q o)
      = 1#1 := by
  refine (broadcastInDim_apply _ _ _ (ix3 p q o) (ix2 p q) fun a => ?_).trans
    (inBounds_eq_one _ (rowIdx_range ts h) (ix2 p q))
  match a with
  | ⟨0, _⟩ => rfl
  | ⟨1, _⟩ => rfl

/-- The taken row at `(p, q, o)` is the weight table at `(o, row)`, `row` the index at `(p, q)` read signed and
    clamped into `[0, 999]`. -/
theorem taken_apply (W : FVec Ideal S8x1000 .f32) (r : IVec S4096x512x1 32) (p : Fin 4096) (q : Fin 512) (o : Fin 8) :
    taken W r (ix3 p q o) = W (ix2 o (TimeBin.row (r (ix3 p q (0 : Fin 1))))) := by
  unfold taken
  refine (TakeRows.gather_apply (by decide) gather_S1000x8_S4096x512x1_S4096x512x8_2_0_n_n_0_2_18
    rfl rfl rfl rfl rfl rfl rfl _ r p q o).trans ?_
  exact Lay2.transpose_apply W transposes_S8x1000_S1000x8_1_0 _ o

/-- The bias broadcast along the last axis reads `b o` at `(p, q, o)`. -/
theorem bias_apply (b : FVec Ideal S8 .f32) (p : Fin 4096) (q : Fin 512) (o : Fin 8) :
    broadcastInDim S4096x512x8 ![0, 1, 2] bcast_S1x1x8_S4096x512x8_0_1_2
      (broadcastInDim S1x1x8 ![2] bcast_S8_S1x1x8_2 b) (ix3 p q o) = b (ix1 o) := by
  refine (broadcastInDim_apply _ _ _ (ix3 p q o) (ix3 (0 : Fin 1) (0 : Fin 1) o) fun a => ?_).trans
    (broadcastInDim_apply _ _ b (ix3 (0 : Fin 1) (0 : Fin 1) o) (ix1 o) fun a => ?_)
  · match a with
    | ⟨0, _⟩ => rfl
    | ⟨1, _⟩ => rfl
    | ⟨2, _⟩ => rfl
  · match a with
    | ⟨0, _⟩ => rfl

/-! ## The result -/

/-- With the bins in range the reference's first result is the embedding. -/
theorem refOut_eq (ts : FVec Ideal S4096x513 .f32) (W : FVec Ideal S8x1000 .f32) (b : FVec Ideal S8 .f32)
    (h : TimeBin.InRange ts) : refOut (F := Ideal) ts W b = TimeBin.emb ts W b := by
  funext i
  obtain ⟨p, q, o, rfl⟩ : ∃ (p : Fin 4096) (q : Fin 512) (o : Fin 8), i = ix3 p q o := ⟨i 0, i 1, i 2, eq_ix3 i⟩
  rw [TimeBin.emb_apply]
  unfold refOut
  rw [addf_apply, select_apply, mask_apply ts h p q o, select_one, taken_apply, rowIdx_bins_apply, bias_apply]

end Cert.ReferenceIdeal.RefValue

end
-- ==== Proof.lean ====
/-
  The kernel and its reference compute one function of the argument arrays.

  Both programs drop the last column of the time array and turn every remaining time `x` into the bin
  `⌊(x − 0) / 1000⌋`, raised to at least `0` and converted to a 32-bit integer. The reference takes row "bin" of the
  transposed weight table (a NaN if the bin is not a row of the table) and adds the bias. The kernel compares the bin
  with 0 … 1023, multiplies the resulting one-hot row by the transposed table padded with zero rows to 1024 rows, and
  adds the bias; a sum of `[bin = k] · table (k, o)` over `k` is the table's entry `(bin, o)`, on the extended reals
  too, since `0 · x = 0` there for every `x`. The precondition says that every bin is at most `999`, and a bin is
  never negative, so both programs read a row of the table itself: both results are
  `W (o, bin (ts (p, q))) + b o` at `(p, q, o)` (`TimeBin.emb`), and both second results are the time array without
  its last column. The three frames are the kernel's generated frames and the reference's run with its results
  dropped; the idealization rewrote nothing.
-/
import proofs.«150341_j70755291234328_1_alg».proof.Defs
import proofs.«150341_j70755291234328_1_alg».proof.Proof.Gen.Kernel
import proofs.«150341_j70755291234328_1_alg».proof.Proof.Gen.Kernel.Skeleton
import proofs.«150341_j70755291234328_1_alg».proof.Proof.Gen.Kernel.Launch
import proofs.«150341_j70755291234328_1_alg».proof.Proof.Gen.Kernel.Points
import proofs.«150341_j70755291234328_1_alg».proof.Proof.Gen.Kernel.Frame
import proofs.«150341_j70755291234328_1_alg».proof.Proof.Gen.KernelIdeal
import proofs.«150341_j70755291234328_1_alg».proof.Proof.Gen.KernelIdeal.Skeleton
import proofs.«150341_j70755291234328_1_alg».proof.Proof.Gen.KernelIdeal.Launch
import proofs.«150341_j70755291234328_1_alg».proof.Proof.Gen.KernelIdeal.Points
import proofs.«150341_j70755291234328_1_alg».proof.Proof.Gen.KernelIdeal.Frame
import proofs.«150341_j70755291234328_1_alg».proof.Proof.Gen.KernelIdeal.Value
import proofs.«150341_j70755291234328_1_alg».proof.Proof.Gen.ReferenceIdeal
import proofs.«150341_j70755291234328_1_alg».proof.Proof.Gen.Pre_finite_inputs
import proofs.«150341_j70755291234328_1_alg».proof.Proof.KBlocks
import proofs.«150341_j70755291234328_1_alg».proof.Proof.PreDecode
import proofs.«150341_j70755291234328_1_alg».proof.Proof.RefRun
import proofs.«150341_j70755291234328_1_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2)
    (Cert.ReferenceIdeal.RefValue.run (F := Ideal) m ρ)

/-- The idealization rewrote no operation. -/
theorem preserves : Cert.preserves_Kernel_KernelIdeal := trivial

/-- Under the precondition every bin is in range on every device; then the kernel's first result is the embedding
    of its argument arrays and so is the reference's of its own, which are the same arrays; the second results are
    both the time array without its last column. -/
theorem algebraic : Cert.algebraic_KernelIdeal_ReferenceIdeal := by
  intro m ρ m' ρ' hpre hagree
  have hin : ∀ c : Dev Cert.KernelIdeal.nD,
      TimeBin.InRange (m ((c.tc : Thread Cert.KernelIdeal.nD Cert.KernelIdeal.τ).loc Cert.KernelIdeal.main_arg1)) :=
    fun c => Cert.Pre_finite_inputs.Decode.inRange_of_pre _ _ _ _ (hpre c)
  refine ⟨_, _, Cert.KernelIdeal.Embed.run m ρ hin, ?_⟩
  refine (θ_run Cert.ReferenceIdeal.defs _ _).mono
    (fun _ h c => ⟨(h c).1.trans ?_, (h c).2.1.trans ?_, (h c).2.2⟩)
    (Cert.ReferenceIdeal.RefValue.run (F := Ideal) m' ρ')
  · rw [(hagree c).2.1, (hagree c).2.2.1, (hagree c).2.2.2]
    exact Cert.ReferenceIdeal.RefValue.refOut_eq _ _ _ (hin c)
  · rw [(hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
